-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S512x4096 : Shape := ⟨2, ![512, 4096]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  main_v18

def fn {F : FTy → Type} [FloatOps F] (main_arg0 : FVec F S16x512x512 .f32) (main_arg1 : FVec F S512x4096 .f32) (main_arg2 : FVec F S512x4096 .f32) (main_arg3 : FVec F S512x4096 .f32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_v13 main_v16
-- ==== Kernel.lean ====
abbrev S16x512x512 : Shape := ⟨3, ![16, 512, 512]⟩
abbrev S512x4096 : Shape := ⟨2, ![512, 4096]⟩
abbrev S16x512x4096 : Shape := ⟨3, ![16, 512, 4096]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16x512x512, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S16x512x512, .bf16⟩
  | .hbm, ⟨5, _⟩ => ⟨S512x4096, .bf16⟩
  | .hbm, ⟨6, _⟩ => ⟨S512x4096, .bf16⟩
  | .hbm, ⟨7, _⟩ => ⟨S512x4096, .bf16⟩
  | .hbm, ⟨8, _⟩ => ⟨S16x512x4096, .f32⟩
  | .local _ .vmem, ⟨0, _⟩ => ⟨S1x512x512, .bf16⟩
  | .local _ .vmem, ⟨1, _⟩ => ⟨S1x512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512x512, .f32⟩
  | .local _ .vmem, ⟨9, _⟩ => ⟨S1x512x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  dot_S512x512_S512x512_S512x512_1_0_0_1_n_n_wf : DotDims.WF S512x512 S512x512 S512x512 [1] [0] [0] [1] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x512x512.size a
  hwx0_0 : ∀ i : grid0.Coords, EltTy.bits .bf16 = 32 ∨ (Rect.block (s := S16x512x512) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x4096.size a
  hwx0_1 : ∀ i : grid0.Coords, EltTy.bits .bf16 = 32 ∨ (Rect.block (s := S512x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x4096.size a
  hwx0_2 : ∀ i : grid0.Coords, EltTy.bits .bf16 = 32 ∨ (Rect.block (s := S512x4096) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x4096.size a
  hwx0_3 : ∀ i : grid0.Coords, EltTy.bits .bf16 = 32 ∨ (Rect.block (s := S512x4096) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S16x512x4096.size a
  hwx0_4 : ∀ i : grid0.Coords, EltTy.bits .f32 = 32 ∨ (Rect.block (s := S16x512x4096) S1x512x512.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x512x512 : Shape := ⟨3, ![16, 512, 512]⟩
abbrev S512x4096 : Shape := ⟨2, ![512, 4096]⟩
abbrev S16x512x4096 : Shape := ⟨3, ![16, 512, 4096]⟩
abbrev S16x512x8x512 : Shape := ⟨4, ![16, 512, 8, 512]⟩
abbrev S8x16x512x512 : Shape := ⟨4, ![8, 16, 512, 512]⟩
abbrev S_ : Shape := ⟨0, ![]⟩
abbrev S8x16x512 : Shape := ⟨3, ![8, 16, 512]⟩
abbrev S8x16x512x1 : Shape := ⟨4, ![8, 16, 512, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S16x512x4096, .f32⟩
  | .hbm, ⟨5, _⟩ => ⟨S16x512x8x512, .f32⟩
  | .hbm, ⟨6, _⟩ => ⟨S8x16x512x512, .f32⟩
  | .hbm, ⟨7, _⟩ => ⟨S16x512x4096, .f32⟩
  | .hbm, ⟨8, _⟩ => ⟨S16x512x8x512, .f32⟩
  | .hbm, ⟨9, _⟩ => ⟨S8x16x512x512, .f32⟩
  | .hbm, ⟨10, _⟩ => ⟨S16x512x4096, .f32⟩
  | .hbm, ⟨11, _⟩ => ⟨S16x512x8x512, .f32⟩
  | .hbm, ⟨12, _⟩ => ⟨S8x16x512x512, .f32⟩
  | .hbm, ⟨13, _⟩ => ⟨S8x16x512x512, .f32⟩
  | .hbm, ⟨14, _⟩ => ⟨S_, .f32⟩
  | .hbm, ⟨15, _⟩ => ⟨S8x16x512, .f32⟩
  | .hbm, ⟨16, _⟩ => ⟨S_, .f32⟩
  | .hbm, ⟨17, _⟩ => ⟨S8x16x512, .f32⟩
  | .hbm, ⟨18, _⟩ => ⟨S8x16x512, .f32⟩
  | .hbm, ⟨19, _⟩ => ⟨S8x16x512x1, .f32⟩
  | .hbm, ⟨20, _⟩ => ⟨S8x16x512x512, .f32⟩
  | .hbm, ⟨21, _⟩ => ⟨S8x16x512x512, .f32⟩
  | .hbm, ⟨22, _⟩ => ⟨S8x16x512x512, .f32⟩
  | .hbm, ⟨23, _⟩ => ⟨S_, .f32⟩
  | .hbm, ⟨24, _⟩ => ⟨S8x16x512, .f32⟩
  | .hbm, ⟨25, _⟩ => ⟨S8x16x512x1, .f32⟩
  | .hbm, ⟨26, _⟩ => ⟨S8x16x512x512, .f32⟩
  | .hbm, ⟨27, _⟩ => ⟨S8x16x512x512, .f32⟩
  | .hbm, ⟨28, _⟩ => ⟨S8x16x512x512, .f32⟩
  | .hbm, ⟨29, _⟩ => ⟨S16x512x8x512, .f32⟩
  | .hbm, ⟨30, _⟩ => ⟨S16x512x4096, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S16x512x4096_S16x512x8x512 : S16x512x4096.ShapeCasts S16x512x8x512
  transposes_S16x512x8x512_S8x16x512x512_2_0_1_3 : S16x512x8x512.Transposes [2, 0, 1, 3] S8x16x512x512
  reducesTo_S8x16x512x512_S8x16x512_d3 : S8x16x512x512.ReducesTo [3] S8x16x512
  h_S_ : 0 < S_.numel
  bcast_S_S8x16x512 : S_.BroadcastsInDim S8x16x512 (![] : Fin 0 → Fin S8x16x512.rank)
  bcast_S8x16x512_S8x16x512x1_0_1_2 : S8x16x512.BroadcastsInDim S8x16x512x1 (![0, 1, 2] : Fin 3 → Fin S8x16x512x1.rank)
  bcast_S8x16x512x1_S8x16x512x512_0_1_2_3 : S8x16x512x1.BroadcastsInDim S8x16x512x512 (![0, 1, 2, 3] : Fin 4 → Fin S8x16x512x512.rank)
  transposes_S8x16x512x512_S16x512x8x512_1_2_0_3 : S8x16x512x512.Transposes [1, 2, 0, 3] S16x512x8x512
  shapeCasts_S16x512x8x512_S16x512x4096 : S16x512x8x512.ShapeCasts S16x512x4096
  dot_S16x512x512_S512x4096_S16x512x4096_2_0_01_1_n_n_wf : DotDims.WF S16x512x512 S512x4096 S16x512x4096 [2] [0] [0, 1] [1] [] []
  dot_S8x16x512x512_S8x16x512x512_S8x16x512x512_3_3_2_2_01_01_wf : DotDims.WF S8x16x512x512 S8x16x512x512 S8x16x512x512 [3] [3] [2] [2] [0, 1] [0, 1]
  dot_S8x16x512x512_S8x16x512x512_S8x16x512x512_3_2_2_3_01_01_wf : DotDims.WF S8x16x512x512 S8x16x512x512 S8x16x512x512 [3] [2] [2] [3] [0, 1] [0, 1]

variable [Facts₀]

def dot_S16x512x512_S512x4096_S16x512x4096_2_0_01_1_n_n : DotDims S16x512x512 S512x4096 S16x512x4096 where
  lhsContracting := [2]
  rhsContracting := [0]
  lhsNonContracting := [0, 1]
  rhsNonContracting := [1]
  lhsBatch := []
  rhsBatch := []
  wf := dot_S16x512x512_S512x4096_S16x512x4096_2_0_01_1_n_n_wf
def dot_S8x16x512x512_S8x16x512x512_S8x16x512x512_3_3_2_2_01_01 : DotDims S8x16x512x512 S8x16x512x512 S8x16x512x512 where
  lhsContracting := [3]
  rhsContracting := [3]
  lhsNonContracting := [2]
  rhsNonContracting := [2]
  lhsBatch := [0, 1]
  rhsBatch := [0, 1]
  wf := dot_S8x16x512x512_S8x16x512x512_S8x16x512x512_3_3_2_2_01_01_wf
def dot_S8x16x512x512_S8x16x512x512_S8x16x512x512_3_2_2_3_01_01 : DotDims S8x16x512x512 S8x16x512x512 S8x16x512x512 where
  lhsContracting := [3]
  rhsContracting := [2]
  lhsNonContracting := [2]
  rhsNonContracting := [3]
  lhsBatch := [0, 1]
  rhsBatch := [0, 1]
  wf := dot_S8x16x512x512_S8x16x512x512_S8x16x512x512_3_2_2_3_01_01_wf

class Facts : Prop extends Facts₀ where

variable [Facts]
-- ==== Proof.HeadAttention.lean ====
/-
  Multi-head softmax attention as ONE function of the four argument arrays, index by index, on the extended reals.

  The input `x` is `[16, 512, 512]` (batch, position, feature); each of the three weights is `[512, 4096]`, its 4096
  columns being 8 heads of 512 lanes: column `h·512 + d` is lane `d` of head `h`. For a batch `b` and a head `h`
    proj w (s, d)   = Σ_f x(b, s, f) · w(f, h·512 + d)                 the three projections q, k, v
    score (i, j)    = Σ_e q(i, e) · k(j, e)
    rowMax i        = max (−∞) (max_j score(i, j))
    weight (i, j)   = exp (score(i, j) − rowMax i)
    prob (i, j)     = weight(i, j) / Σ_j' weight(i, j')
    attend (i, d)   = Σ_j prob(i, j) · v(j, d)
  and the result `[16, 512, 4096]` holds `attend (i, d)` of batch `b` and head `h` at `(b, i, h·512 + d)`.
  Every operation is the exact one on the extended reals (`Ideal.exp`, `Ideal.div`); −∞ is kept as the value of its
  binary word, which both programs spell.
-/
import Idealize.ShloMosaic.PureOps.Ideal
import Idealize.ShloMosaic.Lib.ValueIdx

noncomputable section

open scoped BigOperators

namespace Cert.HeadAttention

open Idealize.ShloMosaic Idealize.ShloMosaic.ValueIdx

/-- The value of the word of −∞. -/
abbrev negInf : EReal := Ideal.ofBits .f32 0xFF800000#32

/-- Row `i` of the queries against row `j` of the keys. -/
def score (q k : Fin 512 → Fin 512 → EReal) (i j : Fin 512) : EReal := ∑ e : Fin 512, q i e * k j e

/-- The maximum of a row of scores, taken from −∞ and once more against −∞. -/
def rowMax (s : Fin 512 → EReal) : EReal := max negInf ((Finset.univ : Finset (Fin 512)).fold max negInf s)

/-- The exponential of a score's distance below its row's maximum. -/
def weight (s : Fin 512 → EReal) (j : Fin 512) : EReal := Ideal.exp (s j - rowMax s)

/-- A weight over the sum of its row's weights. -/
def prob (s : Fin 512 → EReal) (j : Fin 512) : EReal := Ideal.div (weight s j) (∑ j' : Fin 512, weight s j')

/-- The values' rows averaged with the probabilities of row `i`. -/
def attend (q k v : Fin 512 → Fin 512 → EReal) (i d : Fin 512) : EReal :=
  ∑ j : Fin 512, prob (score q k i) j * v j d

/-- Lane `d` of head `h` among the 4096 columns. -/
def col (h : Fin 8) (d : Fin 512) : Fin 4096 := ⟨h.val * 512 + d.val, by omega⟩

/-- The head a column belongs to, and its lane there. -/
def headOf (c : Fin 4096) : Fin 8 := ⟨c.val / 512, by omega⟩
def laneOf (c : Fin 4096) : Fin 512 := ⟨c.val % 512, by omega⟩

theorem col_headOf_laneOf (c : Fin 4096) : col (headOf c) (laneOf c) = c := by
  apply Fin.ext; show c.val / 512 * 512 + c.val % 512 = c.val; omega

/-- Batch `b`'s positions projected onto head `h`'s lanes by the weight `w`. -/
def proj (x : (⟨3, ![16, 512, 512]⟩ : Shape).Idx → EReal) (w : (⟨2, ![512, 4096]⟩ : Shape).Idx → EReal)
    (b : Fin 16) (h : Fin 8) (s d : Fin 512) : EReal :=
  ∑ f : Fin 512, x (ix3 b s f) * w (ix2 f (col h d))

/-- The whole result: at `(b, i, c)` the attention of batch `b` and the head of column `c`, at position `i` and the
    column's lane. -/
def result (x : (⟨3, ![16, 512, 512]⟩ : Shape).Idx → EReal) (wq wk wv : (⟨2, ![512, 4096]⟩ : Shape).Idx → EReal) :
    (⟨3, ![16, 512, 4096]⟩ : Shape).Idx → EReal := fun i =>
  attend (proj x wq (i 0) (headOf (i 2))) (proj x wk (i 0) (headOf (i 2))) (proj x wv (i 0) (headOf (i 2)))
    (i 1) (laneOf (i 2))

end Cert.HeadAttention

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.LibTransposedColumn.lean ====
/-
  A column of row statistics turned into a row, a shape cast that changes nothing, a row sum, and a product of two
  matrices along their rows, each read at an index given by coordinates. Independent of any program.

  * `shapeCast_same_apply` — a shape cast between equal shapes reads the operand at the same index.
  * `transposedColumn_apply` — a vector `[a]` kept as the column `[a, 1]` and then transposed to the row `[1, a]`
    holds, at `(u, i)`, the vector's entry `i`.
  * `lift_row`, `multiReduction_add_row` — a sum over the columns of an `[m, n]` array of extended reals, read at
    row `p`, is the sum over `k : Fin n` of the entries `(p, k)`.
  * `matmul_rows_rows_apply` — a product `[a, n] · [b, n]` with BOTH operands contracted along their last axis,
    into the zero accumulator, read at `(p, c)`, is the sum over `k : Fin n` of the left factor at `(p, k)` times the
    right factor at `(c, k)`: row `p` of the one against row `c` of the other. The contracted coordinates follow
    from which axes are contracted; the kept ones (`hl0`, `hr0`) are the caller's (they compute on a literal record).
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TransposedColumn

open Idealize.ShloMosaic Idealize.ShloMosaic.ValueIdx

variable {α : Type}

/-- A shape cast between equal shapes reads the operand at the same index: the row-major position is the same. -/
theorem shapeCast_same_apply {s : Shape} (x : s.Idx → α) (h : s.ShapeCasts s) (j : s.Idx) :
    shapeCast s x h j = x j :=
  shapeCast_apply x h j j rfl

/-- A vector `[a]` kept as the column `[a, 1]` and transposed to the row `[1, a]` holds, at `(u, i)`, entry `i`. -/
theorem transposedColumn_apply {a : ℕ} (x : (⟨1, ![a]⟩ : Shape).Idx → α)
    (hc : (⟨1, ![a]⟩ : Shape).ShapeCasts ⟨2, ![a, 1]⟩)
    (ht : (⟨2, ![a, 1]⟩ : Shape).Transposes [1, 0] ⟨2, ![1, a]⟩) (u : Fin 1) (i : Fin a) :
    transpose ⟨2, ![1, a]⟩ [1, 0] (shapeCast ⟨2, ![a, 1]⟩ x hc) ht (ix2 u i) = x (ix1 i) := by
  refine (transpose_ix2_apply (shapeCast ⟨2, ![a, 1]⟩ x hc) ht u i).trans ?_
  exact shapeCast_apply x hc _ _ (by
    have hu : u.val = 0 := by omega
    rw [Shape.rowMajor_val_two, Shape.rowMajor_val_one]
    show i.val = i.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A rows-by-rows product `[a, n] · [b, n]` into the zero accumulator, read at `(p, c)`: the sum over the shared
    last axis of row `p` of the left factor against row `c` of the right one. -/
theorem matmul_rows_rows_apply {a n b : ℕ} (d : DotDims ⟨2, ![a, n]⟩ ⟨2, ![b, n]⟩ ⟨2, ![a, b]⟩)
    (hr : d.contr.rank = 1) (hs : d.contr.size ⟨0, by omega⟩ = n)
    (hlc : d.lhsContracting = [1]) (hrc : d.rhsContracting = [1])
    (hl0 : ∀ (i : (⟨2, ![a, b]⟩ : Shape).Idx) (q : d.contr.Idx), (d.lhsIdx i q 0).val = (i 0).val)
    (hr0 : ∀ (i : (⟨2, ![a, b]⟩ : Shape).Idx) (q : d.contr.Idx), (d.rhsIdx i q 0).val = (i 1).val)
    {φ₁ φ₂ : FTy} (prec : Option ContractPrecision) (lhs : FVec Ideal ⟨2, ![a, n]⟩ φ₁) (rhs : FVec Ideal ⟨2, ![b, n]⟩ φ₂)
    (p : Fin a) (c : Fin b) :
    FloatOps.matmul d prec lhs rhs (constant ⟨2, ![a, b]⟩ .f32 0x00000000#32) (ix2 p c)
      = ∑ k : Fin n, lhs (ix2 p k) * rhs (ix2 c k) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 c k := by
    funext ax; apply Fin.ext
    match ax with
    | ⟨0, _⟩ => exact hr0 _ _
    | ⟨1, _⟩ => exact (d.rhsIdx_val_of_single hrc _ _).trans hk
  rw [hL, hR]

end Cert.TransposedColumn

end
-- ==== Proof.LibGuardedExpRows.lean ====
/-
  The numerator of a row softmax whose row maximum is taken once more against −∞ before it is subtracted, read at
  an index given by coordinates, on the extended reals. Independent of any program, generic in the two extents.

  * `guardedExpRows s` — every row of `s` minus `max (−∞) (the row's maximum)`, exponentiated — written with the
    vector operations a kernel body prints (a lane reduction from the word of −∞, a pointwise maximum with the splat
    of that word, the result kept as a column, the column broadcast back along the row), the shape facts and the
    accumulator fact as arguments, so that a printed body is such a term by `rfl`.
  * `guardedExpRows_apply` reads it at `(p, j)`: the exponential of the entry's distance below
    `max (−∞) (fold of max from −∞ over row p)`.
-/
import proofs.«118181_j42949673148_1_alg».proof.Proof.LibRowSoftmax

noncomputable section

namespace Cert.GuardedExpRows

open Idealize.ShloMosaic Idealize.ShloMosaic.ValueIdx

section Term

variable {F : FTy → Type} [FloatOps F] {a n : ℕ}

/-- Every row minus `max (−∞) (its maximum)`, exponentiated. -/
def guardedExpRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩
      (maximumf (broadcast ⟨1, ![a]⟩ (Scalar.ofBits .f32 0xFF800000#32))
        (multiReduction .maximumf [1] ⟨1, ![a]⟩ s 0xFF800000#32 hr hφ hacc)) hc) hb))

end Term

variable {a n : ℕ}

/-- Entry `(p, j)` of the exponentials: the exponential of the entry's distance below `max (−∞) M`, `M` the fold of
    `max` from −∞ over row `p`. -/
theorem guardedExpRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    guardedExpRows s hr hφ hacc hc hb (ix2 p j)
      = Ideal.exp (s (ix2 p j)
          - max (Ideal.ofBits .f32 0xFF800000#32)
              ((Finset.univ : Finset (Fin n)).fold max (Ideal.ofBits .f32 0xFF800000#32) (fun j' => s (ix2 p j')))) := by
  unfold guardedExpRows
  show Ideal.exp (s (ix2 p j) - broadcastTo ⟨2, ![a, n]⟩ _ hb (ix2 p j)) = _
  rw [Cert.RowSoftmax.column_broadcast_apply, Cert.RowSoftmax.column_apply]
  refine congrArg (fun x => Ideal.exp (s (ix2 p j) - max (Ideal.ofBits .f32 0xFF800000#32) x)) ?_
  exact (Ideal.multiReduction_maximumf_single s _ hr hφ hacc (ix1 p)).trans
    (congrArg (fun f => (Finset.univ : Finset (Fin n)).fold max (Ideal.ofBits .f32 0xFF800000#32) f)
      (funext fun k => congrArg s (Cert.RowSoftmax.row_lift hr p k)))

end Cert.GuardedExpRows

end
-- ==== Proof.BodyReads.lean ====
/-
  What one grid point's body computes, read at an index: the block the body stores, as a function of the four blocks
  it loads, is the attention of ONE batch and ONE head. The input block `[1, 512, 512]` is the batch's positions by
  features; each weight block `[512, 512]` is the features by the head's 512 lanes. With
    blockProj w (s, d) = Σ_f x(0, s, f) · w(f, d)
  the stored block holds, at `(0, i, d)`, `attend (blockProj wq) (blockProj wk) (blockProj wv) (i, d)`: three products
  into a zero accumulator (rows by columns), the scores a product of rows by rows, the softmax along the rows (the
  row maximum taken once more against −∞, the row sum), and a last product of rows by columns. A change of float
  format is the identity on the extended reals, and the unit axis in front is cast away and back.
-/
import proofs.«118181_j42949673148_1_alg».proof.Proof.Gen.KernelIdeal.Skeleton
import proofs.«118181_j42949673148_1_alg».proof.Proof.HeadAttention
import proofs.«118181_j42949673148_1_alg».proof.Proof.LibRowSoftmax
import proofs.«118181_j42949673148_1_alg».proof.Proof.LibTransposedColumn
import proofs.«118181_j42949673148_1_alg».proof.Proof.LibGuardedExpRows
import Idealize.ShloMosaic.Lib.Pipeline.Value

noncomputable section

open scoped BigOperators

namespace Cert.KernelIdeal.BodyReads

open Cert.KernelIdeal Cert.KernelIdeal.Gen Idealize.ShloMosaic Idealize.ShloMosaic.ValueIdx
open Cert.HeadAttention

/-- One block's projection: positions by lanes, summed over the features. -/
def blockProj (x0 : Vec Ideal S1x512x512 .bf16) (w : Vec Ideal S512x512 .bf16) (s d : Fin 512) : EReal :=
  ∑ f : Fin 512, x0 (ix3 (0 : Fin 1) s f) * w (ix2 f d)

/-! ## The casts of the unit axis -/

/-- A `[1, 512, 512]` block with its unit axis cast away, at `(s, f)`, is the block's entry `(0, s, f)`. -/
theorem dropUnit_apply {α : Type} (v : S1x512x512.Idx → α) (h : S1x512x512.ShapeCasts S512x512) (s f : Fin 512) :
    shapeCast S512x512 v h (ix2 s f) = v (ix3 (0 : Fin 1) s f) :=
  shapeCast_apply v h _ _ (by
    rw [Shape.rowMajor_val_three, Shape.rowMajor_val_two]
    show (0 * 512 + s.val) * 512 + f.val = s.val * 512 + f.val
    omega)

/-- A `[512, 512]` array given a unit axis in front, at `(u, i, d)`, is the array's entry `(i, d)`. -/
theorem addUnit_apply {α : Type} (v : S512x512.Idx → α) (h : S512x512.ShapeCasts S1x512x512) (u : Fin 1)
    (i d : Fin 512) : shapeCast S1x512x512 v h (ix3 u i d) = v (ix2 i d) :=
  shapeCast_apply v h _ _ (by
    have hu : u.val = 0 := by omega
    rw [Shape.rowMajor_val_two, Shape.rowMajor_val_three]
    show i.val * 512 + d.val = (u.val * 512 + i.val) * 512 + d.val
    omega)

/-! ## The two dimension records' kept coordinates -/

theorem rowsCols_lhs0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

theorem rowsCols_rhs1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

theorem rowsRows_lhs0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl

theorem rowsRows_rhs0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl

/-! ## The products -/

/-- A product of rows by columns into the zero accumulator at `(p, c)`. -/
theorem rowsCols_apply {φ₁ φ₂ : FTy} (l : FVec Ideal S512x512 φ₁) (r : FVec Ideal S512x512 φ₂) (p c : Fin 512) :
    matmul dot_S512x512_S512x512_S512x512_1_0_0_1_n_n none l r (constant S512x512 .f32 0x00000000#32) (ix2 p c)
      = ∑ k : Fin 512, l (ix2 p k) * r (ix2 k c) :=
  Cert.RowSoftmax.matmul_rows_cols_apply dot_S512x512_S512x512_S512x512_1_0_0_1_n_n rfl rfl rfl rfl
    rowsCols_lhs0 rowsCols_rhs1 none l r p c

/-- A product of rows by rows into the zero accumulator at `(p, c)`. -/
theorem rowsRows_apply {φ₁ φ₂ : FTy} (l : FVec Ideal S512x512 φ₁) (r : FVec Ideal S512x512 φ₂) (p c : Fin 512) :
    matmul dot_S512x512_S512x512_S512x512_1_1_0_0_n_n none l r (constant S512x512 .f32 0x00000000#32) (ix2 p c)
      = ∑ k : Fin 512, l (ix2 p k) * r (ix2 c k) :=
  Cert.TransposedColumn.matmul_rows_rows_apply dot_S512x512_S512x512_S512x512_1_1_0_0_n_n rfl rfl rfl rfl
    rowsRows_lhs0 rowsRows_rhs0 none l r p c

/-- A block's projection as the body writes it: the input block with its unit axis cast away, times the weight
    block (cast to its own shape), at `(s, d)`. -/
theorem blockProj_apply (x0 : Vec Ideal S1x512x512 .bf16) (w : Vec Ideal S512x512 .bf16) (s d : Fin 512) :
    matmul dot_S512x512_S512x512_S512x512_1_0_0_1_n_n none
        (shapeCast S512x512 x0 shapeCasts_S1x512x512_S512x512 : FVec Ideal S512x512 .bf16)
        (shapeCast S512x512 w shapeCasts_S512x512_S512x512 : FVec Ideal S512x512 .bf16)
        (constant S512x512 .f32 0x00000000#32) (ix2 s d)
      = blockProj x0 w s d := by
  rw [rowsCols_apply]
  unfold blockProj
  refine Finset.sum_congr rfl fun f _ => ?_
  rw [dropUnit_apply, Cert.TransposedColumn.shapeCast_same_apply]

/-! ## The softmax along the rows -/

/-- The body's softmax of a score matrix `S`, at `(i, j)`, is the probability of the specification on row `i`. -/
theorem softmax_apply (S : FVec Ideal S512x512 .f32) (i j : Fin 512) :
    Cert.RowSoftmax.normRows
        (Cert.GuardedExpRows.guardedExpRows S reduces_S512x512_S512 (.inl rfl) rfl shapeCasts_S512_S512x1
          broadcasts_S512x1_S512x512)
        reduces_S512x512_S512 (.inl rfl) rfl shapeCasts_S512_S512x1 broadcasts_S512x1_S512x512 (ix2 i j)
      = prob (fun j' => S (ix2 i j')) j := by
  have e : ∀ j' : Fin 512,
      Cert.GuardedExpRows.guardedExpRows S reduces_S512x512_S512 (.inl rfl) rfl shapeCasts_S512_S512x1
          broadcasts_S512x1_S512x512 (ix2 i j')
        = weight (fun j' => S (ix2 i j')) j' :=
    fun j' => Cert.GuardedExpRows.guardedExpRows_apply S _ _ _ _ _ i j'
  refine (Cert.RowSoftmax.normRows_apply _ reduces_S512x512_S512 (.inl rfl) rfl shapeCasts_S512_S512x1
    broadcasts_S512x1_S512x512 i j).trans ?_
  exact congrArg₂ Ideal.div (e j) (Finset.sum_congr rfl fun j' _ => e j')

/-! ## The stored block -/

/-- The block the body stores, at `(u, i, d)`: the attention of the loaded blocks' projections. -/
theorem pay_apply (x0 : Vec Ideal S1x512x512 .bf16) (x1 x2 x3 : Vec Ideal S512x512 .bf16) (u : Fin 1)
    (i d : Fin 512) :
    k0_pay1 (F := Ideal) x0 x1 x2 x3 (ix3 u i d)
      = attend (blockProj x0 x1) (blockProj x0 x2) (blockProj x0 x3) i d := by
  unfold k0_pay1
  refine (addUnit_apply _ shapeCasts_S512x512_S1x512x512 u i d).trans ?_
  refine (rowsCols_apply _ _ i d).trans ?_
  unfold attend
  refine Finset.sum_congr rfl fun j _ => ?_
  refine congrArg₂ (· * ·) ?_ (blockProj_apply x0 x3 j d)
  refine (softmax_apply _ i j).trans ?_
  refine congrArg (fun s => prob s j) (funext fun j' => ?_)
  refine (rowsRows_apply _ _ i j').trans ?_
  unfold score
  refine Finset.sum_congr rfl fun e _ => ?_
  exact congrArg₂ (· * ·) (blockProj_apply x0 x1 i e) (blockProj_apply x0 x2 j' e)

end Cert.KernelIdeal.BodyReads

end
-- ==== Proof.BlocksToArray.lean ====
/-
  From the blocks to the array. The grid has a point for every head `h` and batch `b`; the point stores the block
  `(b, 0, h)` of the result `[16, 512, 4096]` — batch `b`, every position, the head's 512 columns — computed from the
  input's block `(b, 0, 0)` (the batch's positions by features) and the weights' blocks `(0, h)` (the features by the
  head's lanes). The arrays the region finds are the arguments with their float format changed, which is the identity
  on the extended reals. So what a point writes back is the specification read through the point's block; the 128
  blocks tile the result; and the result array ends holding the specification of the argument arrays.
-/
import proofs.«118181_j42949673148_1_alg».proof.Proof.Gen.KernelIdeal.Value
import proofs.«118181_j42949673148_1_alg».proof.Proof.BodyReads
import Idealize.ShloMosaic.Lib.Pipeline.Value
import Idealize.ShloMosaic.Lib.StableHlo.Run
import Idealize.ShloMosaic.Lib.Tactic

noncomputable section

open scoped BigOperators

namespace Cert.KernelIdeal.HeadValue

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)
open Cert.HeadAttention Cert.KernelIdeal.BodyReads

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## Columns and heads -/

theorem headOf_col (h : Fin 8) (d : Fin 512) : headOf (col h d) = h := by
  apply Fin.ext; show (h.val * 512 + d.val) / 512 = h.val; omega

theorem laneOf_col (h : Fin 8) (d : Fin 512) : laneOf (col h d) = d := by
  apply Fin.ext; show (h.val * 512 + d.val) % 512 = d.val; omega

/-! ## One block of the result -/

/-- If the loaded blocks are batch `b`'s block of `X` and head `h`'s column blocks of the three weights, the stored
    block holds, at `(u, i, d)`, the specification's entry `(b, i, h·512 + d)`. -/
theorem block_eq (X : (⟨3, ![16, 512, 512]⟩ : Shape).Idx → EReal) (Wq Wk Wv : (⟨2, ![512, 4096]⟩ : Shape).Idx → EReal)
    (b : Fin 16) (h : Fin 8) (x0 : Vec Ideal S1x512x512 .bf16) (x1 x2 x3 : Vec Ideal S512x512 .bf16)
    (h0 : ∀ s f : Fin 512, x0 (ix3 (0 : Fin 1) s f) = X (ix3 b s f))
    (h1 : ∀ f d : Fin 512, x1 (ix2 f d) = Wq (ix2 f (col h d)))
    (h2 : ∀ f d : Fin 512, x2 (ix2 f d) = Wk (ix2 f (col h d)))
    (h3 : ∀ f d : Fin 512, x3 (ix2 f d) = Wv (ix2 f (col h d)))
    (u : Fin 1) (i d : Fin 512) :
    k0_pay1 (F := Ideal) x0 x1 x2 x3 (ix3 u i d) = result X Wq Wk Wv (ix3 b i (col h d)) := by
  rw [pay_apply]
  have p1 : blockProj x0 x1 = proj X Wq b h := funext fun s => funext fun e =>
    Finset.sum_congr rfl fun f _ => by rw [h0, h1]
  have p2 : blockProj x0 x2 = proj X Wk b h := funext fun s => funext fun e =>
    Finset.sum_congr rfl fun f _ => by rw [h0, h2]
  have p3 : blockProj x0 x3 = proj X Wv b h := funext fun s => funext fun e =>
    Finset.sum_congr rfl fun f _ => by rw [h0, h3]
  rw [p1, p2, p3]
  show _ = attend (proj X Wq b (headOf (col h d))) (proj X Wk b (headOf (col h d))) (proj X Wv b (headOf (col h d)))
    i (laneOf (col h d))
  rw [headOf_col, laneOf_col]

/-! ## The arrays the region finds -/

/-- The input as the region finds it is the argument: the change of float format is the identity. -/
theorem V_x (c : Dev nD) :
    (V m c main_v0 : S16x512x512.Idx → EReal) = (m ((c : Thread nD τ).loc main_arg0) : S16x512x512.Idx → EReal) := by
  dsimp only [Gen.V, Gen.hostOps0]; after_results; rfl

theorem V_wq (c : Dev nD) :
    (V m c main_v1 : S512x4096.Idx → EReal) = (m ((c : Thread nD τ).loc main_arg1) : S512x4096.Idx → EReal) := by
  dsimp only [Gen.V, Gen.hostOps0]; after_results; rfl

theorem V_wk (c : Dev nD) :
    (V m c main_v2 : S512x4096.Idx → EReal) = (m ((c : Thread nD τ).loc main_arg2) : S512x4096.Idx → EReal) := by
  dsimp only [Gen.V, Gen.hostOps0]; after_results; rfl

theorem V_wv (c : Dev nD) :
    (V m c main_v3 : S512x4096.Idx → EReal) = (m ((c : Thread nD τ).loc main_arg3) : S512x4096.Idx → EReal) := by
  dsimp only [Gen.V, Gen.hostOps0]; after_results; rfl

/-! ## Where each window's block sits, at every grid point -/

/-- The printed index maps, decided over the 128 points: the result's block is `(b, 0, h)` with `b < 16` and `h < 8`,
    the input's block is `(b, 0, 0)` and each weight's block is `(0, h)`. -/
theorem idx_facts : ∀ t : Fin cfg0.N,
    win0_0.index t (0 : Fin 3) = win0_4.index t (0 : Fin 3) ∧ win0_0.index t (1 : Fin 3) = 0
    ∧ win0_0.index t (2 : Fin 3) = 0
    ∧ win0_1.index t (0 : Fin 2) = 0 ∧ win0_1.index t (1 : Fin 2) = win0_4.index t (2 : Fin 3)
    ∧ win0_2.index t (0 : Fin 2) = 0 ∧ win0_2.index t (1 : Fin 2) = win0_4.index t (2 : Fin 3)
    ∧ win0_3.index t (0 : Fin 2) = 0 ∧ win0_3.index t (1 : Fin 2) = win0_4.index t (2 : Fin 3)
    ∧ win0_4.index t (1 : Fin 3) = 0 ∧ win0_4.index t (0 : Fin 3) < 16 ∧ win0_4.index t (2 : Fin 3) < 8 :=
  (by decide +kernel : ∀ t : Fin grid0.N, _)

/-- Every pair of a batch and a head is some point's. -/
theorem idx_onto : ∀ (b : Fin 16) (h : Fin 8), ∃ t : Fin cfg0.N, win0_4.index t = ![b.val, 0, h.val] :=
  (by decide +kernel : ∀ (b : Fin 16) (h : Fin 8), ∃ t : Fin grid0.N, win0_4.index t = ![b.val, 0, h.val])

/-! ## What a point writes back -/

/-- What point `t` writes back is the point's block of the specification of the argument arrays. -/
theorem flushed_eq (c : Dev nD) (t : Fin cfg0.N) :
    (dats m 0 c).flushed 4 t = ((cfg0.win 4).blk t).view.read (Elt Ideal)
      (result (m ((c : Thread nD τ).loc main_arg0)) (m ((c : Thread nD τ).loc main_arg1))
        (m ((c : Thread nD τ).loc main_arg2)) (m ((c : Thread nD τ).loc main_arg3))) := by
  rw [flushed4]
  unfold out0_4
  rw [View.canon_unit_zero hz3]
  simp only [View.ld_unit_zero (S := S1x512x512) hz3, View.ld_unit_zero (S := S512x512) hz2]
  obtain ⟨e00, e01, e02, e10, e11, e20, e21, e30, e31, e41, lb, lh⟩ := idx_facts t
  funext y
  obtain ⟨u, i, d, rfl⟩ : ∃ (u : Fin 1) (i d : Fin 512), y = ix3 u i d := ⟨y 0, y 1, y 2, eq_ix3 y⟩
  have hu : u.val = 0 := by omega
  refine (block_eq (m ((c : Thread nD τ).loc main_arg0)) (m ((c : Thread nD τ).loc main_arg1))
    (m ((c : Thread nD τ).loc main_arg2)) (m ((c : Thread nD τ).loc main_arg3))
    ⟨win0_4.index t (0 : Fin 3), lb⟩ ⟨win0_4.index t (2 : Fin 3), lh⟩
    (iblk m c 0 t) (iblk m c 1 t) (iblk m c 2 t) (iblk m c 3 t) ?_ ?_ ?_ ?_ u i d).trans ?_
  · intro s f
    unfold iblk
    rw [View.read_apply]
    show V m c main_v0 _ = _
    rw [V_x]
    refine congrArg _ (funext fun a => Fin.ext ?_)
    match a with
    | ⟨0, _⟩ => show win0_0.index t (0 : Fin 3) * 1 + 1 * 0 = win0_4.index t (0 : Fin 3); omega
    | ⟨1, _⟩ => show win0_0.index t (1 : Fin 3) * 512 + 1 * s.val = s.val; omega
    | ⟨2, _⟩ => show win0_0.index t (2 : Fin 3) * 512 + 1 * f.val = f.val; omega
  · intro f e
    unfold iblk
    rw [View.read_apply]
    show V m c main_v1 _ = _
    rw [V_wq]
    refine congrArg _ (funext fun a => Fin.ext ?_)
    match a with
    | ⟨0, _⟩ => show win0_1.index t (0 : Fin 2) * 512 + 1 * f.val = f.val; omega
    | ⟨1, _⟩ => show win0_1.index t (1 : Fin 2) * 512 + 1 * e.val = win0_4.index t (2 : Fin 3) * 512 + e.val; omega
  · intro f e
    unfold iblk
    rw [View.read_apply]
    show V m c main_v2 _ = _
    rw [V_wk]
    refine congrArg _ (funext fun a => Fin.ext ?_)
    match a with
    | ⟨0, _⟩ => show win0_2.index t (0 : Fin 2) * 512 + 1 * f.val = f.val; omega
    | ⟨1, _⟩ => show win0_2.index t (1 : Fin 2) * 512 + 1 * e.val = win0_4.index t (2 : Fin 3) * 512 + e.val; omega
  · intro f e
    unfold iblk
    rw [View.read_apply]
    show V m c main_v3 _ = _
    rw [V_wv]
    refine congrArg _ (funext fun a => Fin.ext ?_)
    match a with
    | ⟨0, _⟩ => show win0_3.index t (0 : Fin 2) * 512 + 1 * f.val = f.val; omega
    | ⟨1, _⟩ => show win0_3.index t (1 : Fin 2) * 512 + 1 * e.val = win0_4.index t (2 : Fin 3) * 512 + e.val; omega
  · rw [View.read_apply]
    refine congrArg _ (funext fun a => Fin.ext ?_)
    match a with
    | ⟨0, _⟩ => show win0_4.index t (0 : Fin 3) = win0_4.index t (0 : Fin 3) * 1 + 1 * u.val; omega
    | ⟨1, _⟩ => show i.val = win0_4.index t (1 : Fin 3) * 512 + 1 * i.val; omega
    | ⟨2, _⟩ => show win0_4.index t (2 : Fin 3) * 512 + d.val = win0_4.index t (2 : Fin 3) * 512 + 1 * d.val; omega

/-! ## The blocks tile the result -/

/-- An index of the result is in point `t`'s block iff each coordinate is in the block's range on its axis. -/
theorem mem_blk (t : Fin cfg0.N) (i : S16x512x4096.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v4).slice (win0_4.rect t)).set ↔ _
  rw [View.set_slice_whole, Rect.mem_set_unit]
  exact Iff.rfl

/-- Every index of the result is in the block of the point of its batch and its column's head. -/
theorem cover (i : S16x512x4096.Idx) :
    ∃ t : Fin cfg0.N, (cfg0.win 4).flush t = true ∧ i ∈ ((cfg0.win 4).blk t).view.set := by
  have hi0 : (i 0).val < 16 := (i 0).isLt
  have hi1 : (i 1).val < 512 := (i 1).isLt
  have hi2 : (i 2).val < 4096 := (i 2).isLt
  obtain ⟨t, ht⟩ := idx_onto ⟨(i 0).val, hi0⟩ ⟨(i 2).val / 512, by omega⟩
  have q0 : win0_4.index t (0 : Fin 3) = (i 0).val := congrFun ht 0
  have q1 : win0_4.index t (1 : Fin 3) = 0 := congrFun ht 1
  have q2 : win0_4.index t (2 : Fin 3) = (i 2).val / 512 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-! ## The result array and the run -/

/-- The result array after the run is the specification of the argument arrays. -/
theorem final (c : Dev nD) : (dats m 0 c).arrAt 4 cfg0.N
    = result (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.HeadValue

end
-- ==== Proof.LibLastAxisMax.lean ====
/-
  A host reduction with a maximum body over the LAST axis of a rank-4 array, read at an index given by coordinates,
  on the extended reals. Independent of any program, generic in the four extents.

  * `lift_last` — the reduced index `(p, q, r)` with the last coordinate `k` put back is the index `(p, q, r, k)`.
  * `hostReduce_max_last` — the reduction's entry `(p, q, r)` is the fold of `max`, from the initial value's one
    element, over `k : Fin n` of the operand's entries `(p, q, r, k)`: the maximum of the last-axis fibre through
    `(p, q, r)`, taken from the initial value.
-/
import Idealize.ShloMosaic.PureOps
import Idealize.ShloMosaic.PureOps.Ideal.Laws
import Idealize.ShloMosaic.Lib.ValueIdx

noncomputable section

namespace Cert.LastAxisMax

open Idealize.ShloMosaic Idealize.ShloMosaic.ValueIdx

variable {a b c n : ℕ}

/-- The reduced index `(p, q, r)` with the last coordinate `k` put back is `(p, q, r, k)`. -/
theorem lift_last (h : (⟨4, ![a, b, c, n]⟩ : Shape).Reduces [3] (⟨3, ![a, b, c]⟩ : Shape)) (p : Fin a) (q : Fin b)
    (r : Fin c) (k : Fin ((⟨4, ![a, b, c, n]⟩ : Shape).size 3)) :
    h.lift (ix3 p q r) k = ix4 p q r (⟨k.val, k.isLt⟩ : Fin n) := by
  funext d; apply Fin.ext
  fin_cases d <;> rfl

/-- A host reduction with a maximum body over the last axis of an `[a, b, c, n]` array of extended reals, read at
    `(p, q, r)`: the fold of `max` from the initial value over the `n` entries `(p, q, r, k)`. -/
theorem hostReduce_max_last {u : Shape} (x : FVec Ideal ⟨4, ![a, b, c, n]⟩ .f32) (init : u.Idx → Ideal .f32)
    (h' : (⟨4, ![a, b, c, n]⟩ : Shape).ReducesTo [3] (⟨3, ![a, b, c]⟩ : Shape))
    (h : (⟨4, ![a, b, c, n]⟩ : Shape).Reduces [3] (⟨3, ![a, b, c]⟩ : Shape)) (hu : 0 < u.numel)
    (p : Fin a) (q : Fin b) (r : Fin c) :
    Host.reduce FloatOps.maximumf x init h' hu (ix3 p q r)
      = (Finset.univ : Finset (Fin n)).fold max (init (Shape.Idx.first hu)) (fun k => x (ix4 p q r k)) := by
  rw [Host.reduce_eq_fold_single FloatOps.maximumf x init h' h hu]
  exact congrArg (fun f => Finset.fold max (init (Shape.Idx.first hu)) f (Finset.univ : Finset (Fin n)))
    (funext fun k => congrArg x (lift_last h p q r k))

end Cert.LastAxisMax

end
-- ==== Proof.ReferenceReads.lean ====
/-
  The reference's run read at coordinates, stage by stage: each stage of its @main, at an index written with its
  coordinates (head `h`, batch `b`, positions `i`, `j`, lane `d`), is the piece of the specification with the same
  name — the three projections (a contraction over the features, the 4096 columns re-laid as 8 heads of 512 lanes and
  the head axis moved to the front), the scores (a contraction over the lanes, batched over head and batch), the row
  maximum (a fold of max over the last axis, from −∞, then once more against −∞), the weights, the probabilities (the
  row sum taken from the initial value 0), the attention (a contraction over the positions) — and the result, the head
  axis moved back between position and lane and folded with the lane into the 4096 columns.
-/
import proofs.«118181_j42949673148_1_alg».proof.Proof.Gen.ReferenceIdeal.Read
import proofs.«118181_j42949673148_1_alg».proof.Proof.HeadAttention
import proofs.«118181_j42949673148_1_alg».proof.Proof.LibLastAxisMax

noncomputable section

open scoped BigOperators

namespace Cert.ReferenceIdeal.HeadReads

open Cert.ReferenceIdeal Cert.ReferenceIdeal.Gen Cert.ReferenceIdeal.Read Idealize.ShloMosaic Idealize.ShloMosaic.ValueIdx
open Cert.HeadAttention

variable (x : FVec Ideal S16x512x512 .f32) (wq wk wv : FVec Ideal S512x4096 .f32)

/-- A projection stage at `(h, b, s, d)`: the sum over the features of `x(b, s, f) · w(f, h·512 + d)`. The reshape
    reads row-major position `((b·512 + s)·8 + h)·512 + d` of `[16, 512, 4096]`, whose coordinates are `b`, `s` and
    `h·512 + d`. -/
theorem proj_read (w : FVec Ideal S512x4096 .f32) (h : Fin 8) (b : Fin 16) (s d : Fin 512) :
    val_main_v2 (F := Ideal) x w (ix4 h b s d) = proj x w b h s d := by
  rw [val_main_v2_apply, val_main_v1_apply, val_main_v0_apply]
  unfold proj
  refine Finset.sum_congr rfl fun f _ => ?_
  have hb := b.isLt; have hs := s.isLt; have hh := h.isLt; have hd := d.isLt
  have el : lidx_main_v0 (idx_main_v1 (idx_main_v2 (ix4 h b s d))) f = ix3 b s f := by
    funext a; apply Fin.ext
    match a with
    | ⟨0, _⟩ => show (((b.val * 512 + s.val) * 8 + h.val) * 512 + d.val) / 2097152 = b.val; omega
    | ⟨1, _⟩ => show (((b.val * 512 + s.val) * 8 + h.val) * 512 + d.val) / 4096 % 512 = s.val; omega
    | ⟨2, _⟩ => rfl
  have er : ridx_main_v0 (idx_main_v1 (idx_main_v2 (ix4 h b s d))) f = ix2 f (col h d) := by
    funext a; apply Fin.ext
    match a with
    | ⟨0, _⟩ => rfl
    | ⟨1, _⟩ => show (((b.val * 512 + s.val) * 8 + h.val) * 512 + d.val) % 4096 = h.val * 512 + d.val; omega
  rw [el, er]

/-- The keys' and the values' projections are the same stages of another weight. -/
theorem proj_read_keys (w : FVec Ideal S512x4096 .f32) (h : Fin 8) (b : Fin 16) (s d : Fin 512) :
    val_main_v5 (F := Ideal) x w (ix4 h b s d) = proj x w b h s d := proj_read x w h b s d

theorem proj_read_values (w : FVec Ideal S512x4096 .f32) (h : Fin 8) (b : Fin 16) (s d : Fin 512) :
    val_main_v8 (F := Ideal) x w (ix4 h b s d) = proj x w b h s d := proj_read x w h b s d

/-- The scores at `(h, b, i, j)`. -/
theorem score_read (h : Fin 8) (b : Fin 16) (i j : Fin 512) :
    val_main_v9 (F := Ideal) x wq wk (ix4 h b i j) = score (proj x wq b h) (proj x wk b h) i j := by
  rw [val_main_v9_apply]
  unfold score
  refine Finset.sum_congr rfl fun e _ => ?_
  have el : lidx_main_v9 (ix4 h b i j) e = ix4 h b i e := by
    funext a; apply Fin.ext
    match a with
    | ⟨0, _⟩ => rfl
    | ⟨1, _⟩ => rfl
    | ⟨2, _⟩ => rfl
    | ⟨3, _⟩ => rfl
  have er : ridx_main_v9 (ix4 h b i j) e = ix4 h b j e := by
    funext a; apply Fin.ext
    match a with
    | ⟨0, _⟩ => rfl
    | ⟨1, _⟩ => rfl
    | ⟨2, _⟩ => rfl
    | ⟨3, _⟩ => rfl
  rw [el, er, proj_read, proj_read_keys]

/-- The row maximum at `(h, b, i)`. -/
theorem rowMax_read (h : Fin 8) (b : Fin 16) (i : Fin 512) :
    val_main_v12 (F := Ideal) x wq wk (ix3 h b i) = rowMax (score (proj x wq b h) (proj x wk b h) i) := by
  rw [val_main_v12_apply, val_main_v11_apply]
  unfold val_main_v10 rowMax
  rw [Cert.LastAxisMax.hostReduce_max_last (val_main_v9 (F := Ideal) x wq wk) (val_main_cst (F := Ideal))
    reducesTo_S8x16x512x512_S8x16x512_d3 (by decide) h_S_ h b i]
  have e : (fun k : Fin 512 => val_main_v9 (F := Ideal) x wq wk (ix4 h b i k))
      = score (proj x wq b h) (proj x wk b h) i := funext fun k => score_read x wq wk h b i k
  rw [e]
  rfl

/-- The weights at `(h, b, i, j)`. -/
theorem weight_read (h : Fin 8) (b : Fin 16) (i j : Fin 512) :
    val_main_v16 (F := Ideal) x wq wk (ix4 h b i j) = weight (score (proj x wq b h) (proj x wk b h) i) j := by
  rw [val_main_v16_apply, val_main_v15_apply, val_main_v14_apply, val_main_v13_apply]
  have ei : idx_main_v13 (idx_main_v14 (ix4 h b i j)) = ix3 h b i := by
    funext a; apply Fin.ext
    match a with
    | ⟨0, _⟩ => rfl
    | ⟨1, _⟩ => rfl
    | ⟨2, _⟩ => rfl
  rw [ei, rowMax_read, score_read]
  rfl

/-- The probabilities at `(h, b, i, j)`: the row sum starts from the word of zero, which adds nothing. -/
theorem prob_read (h : Fin 8) (b : Fin 16) (i j : Fin 512) :
    val_main_v20 (F := Ideal) x wq wk (ix4 h b i j) = prob (score (proj x wq b h) (proj x wk b h) i) j := by
  rw [val_main_v20_apply, val_main_v19_apply, val_main_v18_apply, val_main_v17_apply]
  have ei : idx_main_v18 (idx_main_v19 (ix4 h b i j)) = ix3 h b i := by
    funext a; apply Fin.ext
    match a with
    | ⟨0, _⟩ => rfl
    | ⟨1, _⟩ => rfl
    | ⟨2, _⟩ => rfl
  have es : ∀ k : Fin 512, idx_main_v17 (ix3 h b i) k = ix4 h b i k := fun k => by
    funext a; apply Fin.ext
    match a with
    | ⟨0, _⟩ => rfl
    | ⟨1, _⟩ => rfl
    | ⟨2, _⟩ => rfl
    | ⟨3, _⟩ => rfl
  rw [ei, weight_read]
  unfold prob
  have e0 : val_main_cst_1 (F := Ideal) (Shape.Idx.first h_S_) = 0 := Ideal.ofBits_zero_f32
  rw [e0, zero_add]
  have e : (fun k : Fin 512 => val_main_v16 (F := Ideal) x wq wk (idx_main_v17 (ix3 h b i) k))
      = weight (score (proj x wq b h) (proj x wk b h) i) := funext fun k => by rw [es k, weight_read]
  show Ideal.div _ (∑ k : Fin 512, (fun k : Fin 512 => val_main_v16 (F := Ideal) x wq wk (idx_main_v17 (ix3 h b i) k)) k) = _
  rw [e]

/-- The attention at `(h, b, i, d)`. -/
theorem attend_read (h : Fin 8) (b : Fin 16) (i d : Fin 512) :
    val_main_v21 (F := Ideal) x wq wk wv (ix4 h b i d)
      = attend (proj x wq b h) (proj x wk b h) (proj x wv b h) i d := by
  rw [val_main_v21_apply]
  unfold attend
  refine Finset.sum_congr rfl fun j _ => ?_
  have el : lidx_main_v21 (ix4 h b i d) j = ix4 h b i j := by
    funext a; apply Fin.ext
    match a with
    | ⟨0, _⟩ => rfl
    | ⟨1, _⟩ => rfl
    | ⟨2, _⟩ => rfl
    | ⟨3, _⟩ => rfl
  have er : ridx_main_v21 (ix4 h b i d) j = ix4 h b j d := by
    funext a; apply Fin.ext
    match a with
    | ⟨0, _⟩ => rfl
    | ⟨1, _⟩ => rfl
    | ⟨2, _⟩ => rfl
    | ⟨3, _⟩ => rfl
  rw [el, er, prob_read, proj_read_values]

/-- The reference's result is the specification: entry `(b, i, c)` reads row-major position `(b·512 + i)·4096 + c`
    of `[16, 512, 8, 512]`, whose coordinates are `b`, `i`, `c / 512` and `c % 512`, and the transposition reads the
    head first. -/
theorem result_read_at (idx : S16x512x4096.Idx) :
    val_main_v23 (F := Ideal) x wq wk wv idx = result x wq wk wv idx := by
  rw [val_main_v23_apply, val_main_v22_apply]
  have h0 : (idx 0).val < 16 := (idx 0).isLt
  have h1 : (idx 1).val < 512 := (idx 1).isLt
  have h2 : (idx 2).val < 4096 := (idx 2).isLt
  have ei : idx_main_v22 (idx_main_v23 idx) = ix4 (headOf (idx 2)) (idx 0) (idx 1) (laneOf (idx 2)) := by
    funext a; apply Fin.ext
    match a with
    | ⟨0, _⟩ => show (((idx 0).val * 512 + (idx 1).val) * 4096 + (idx 2).val) / 512 % 8 = (idx 2).val / 512; omega
    | ⟨1, _⟩ => show (((idx 0).val * 512 + (idx 1).val) * 4096 + (idx 2).val) / 2097152 = (idx 0).val; omega
    | ⟨2, _⟩ => show (((idx 0).val * 512 + (idx 1).val) * 4096 + (idx 2).val) / 4096 % 512 = (idx 1).val; omega
    | ⟨3, _⟩ => show (((idx 0).val * 512 + (idx 1).val) * 4096 + (idx 2).val) % 512 = (idx 2).val % 512; omega
  rw [ei]
  exact attend_read x wq wk wv (headOf (idx 2)) (idx 0) (idx 1) (laneOf (idx 2))

theorem result_read : val_main_v23 (F := Ideal) x wq wk wv = result x wq wk wv :=
  funext (result_read_at x wq wk wv)

end Cert.ReferenceIdeal.HeadReads

end
-- ==== Proof.lean ====
/-
  Multi-head softmax attention: a kernel that computes one batch and one head per grid point against the reference
  that computes all heads at once; equal on the extended reals.

  The kernel's grid is 8 heads by 16 batches. At the point of head `h` and batch `b` the body loads batch `b`'s
  positions by features and the three weights' columns of head `h`, forms the three projections (products into a zero
  accumulator), the scores (the queries' rows against the keys' rows), the softmax along each row (the row maximum
  taken from −∞ and once more against −∞, the exponentials, the row sum, the quotient) and the product with the
  values, and stores the block `(b, ·, h)` of the result. The reference contracts the input with each whole weight,
  re-lays the 4096 columns as 8 heads of 512 lanes with the head axis in front, takes the same scores, softmax and
  product batched over head and batch, and moves the head axis back into the columns. Entry by entry both are
    Σ_j prob(i, j) · v(j, d),   prob = softmax of  score(i, j) = Σ_e q(i, e) · k(j, e),
  with q, k, v the projections of batch `b` onto head `h` (Proof/HeadAttention.lean): the same sums over the same index
  sets, the same exponential and quotient, the same word of −∞ and of zero. A change of float format is the identity on
  the extended reals, so the kernel's conversions change nothing. No law of arithmetic beyond the operations' own
  definitions is needed, and the precondition is not used.

  Proof/BodyReads.lean reads the block a point stores at an index; Proof/BlocksToArray.lean shows that it is the point's
  block of the specification and that the 128 blocks tile the result; Proof/ReferenceReads.lean reads the reference's run
  stage by stage; here the claims are assembled. The idealization rewrote no operation, so `preserves` is `True`.
-/
import proofs.«118181_j42949673148_1_alg».proof.Defs
import proofs.«118181_j42949673148_1_alg».proof.Proof.Gen.Kernel
import proofs.«118181_j42949673148_1_alg».proof.Proof.Gen.Kernel.Skeleton
import proofs.«118181_j42949673148_1_alg».proof.Proof.Gen.Kernel.Launch
import proofs.«118181_j42949673148_1_alg».proof.Proof.Gen.Kernel.Points
import proofs.«118181_j42949673148_1_alg».proof.Proof.Gen.Kernel.Frame
import proofs.«118181_j42949673148_1_alg».proof.Proof.Gen.KernelIdeal
import proofs.«118181_j42949673148_1_alg».proof.Proof.Gen.KernelIdeal.Skeleton
import proofs.«118181_j42949673148_1_alg».proof.Proof.Gen.KernelIdeal.Launch
import proofs.«118181_j42949673148_1_alg».proof.Proof.Gen.KernelIdeal.Points
import proofs.«118181_j42949673148_1_alg».proof.Proof.Gen.KernelIdeal.Frame
import proofs.«118181_j42949673148_1_alg».proof.Proof.Gen.ReferenceIdeal
import proofs.«118181_j42949673148_1_alg».proof.Proof.Gen.Pre_finite_inputs
import proofs.«118181_j42949673148_1_alg».proof.Proof.Gen.KernelIdeal.Value
import proofs.«118181_j42949673148_1_alg».proof.Proof.Gen.ReferenceIdeal.Run
import proofs.«118181_j42949673148_1_alg».proof.Proof.Gen.ReferenceIdeal.Read
import Idealize.ShloMosaic.Adequacy
import Idealize.ShloMosaic.Init
import proofs.«118181_j42949673148_1_alg».proof.Proof.BlocksToArray
import proofs.«118181_j42949673148_1_alg».proof.Proof.ReferenceReads

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the specification of the (agreeing) argument arrays. -/
theorem algebraic : Cert.algebraic_KernelIdeal_ReferenceIdeal := by
  intro m ρ m' ρ' _ hagree
  refine ⟨_, Cert.KernelIdeal.HeadValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.HeadReads.result_read,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
